-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024 : Shape := ⟨2, ![64, 1024]⟩
abbrev S1024x1024 : Shape := ⟨2, ![1024, 1024]⟩
abbrev S1024 : Shape := ⟨1, ![1024]⟩
abbrev S1024x2048 : Shape := ⟨2, ![1024, 2048]⟩
abbrev S_ : Shape := ⟨0, ![]⟩

class Facts : Prop where
  bcast_S_S64x1024 : S_.BroadcastsInDim S64x1024 (![] : Fin 0 → Fin S64x1024.rank)
  reducesTo_S64x1024_S_d0_1 : S64x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_

variable [Facts]

def fn_part2 {F : FTy → Type} [FloatOps F] (main_arg7 : FVec F S1024x2048 .f32) (main_arg8 : FVec F S1024 .f32) (main_v33 : IVec S_ 1) : IVec S_ 1 :=
  let main_v34 : FVec F S1024x2048 .f32 := Host.absf main_arg7
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x2048 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S64x1024 .f32) (main_arg1 : FVec F S64x1024 .f32) (main_arg2 : FVec F S64x1024 .f32) (main_arg3 : FVec F S1024x1024 .f32) (main_arg4 : FVec F S1024 .f32) (main_arg5 : FVec F S1024x1024 .f32) (main_arg6 : FVec F S1024 .f32) (main_arg7 : FVec F S1024x2048 .f32) (main_arg8 : FVec F S1024 .f32) : IVec S_ 1 :=
  let main_v0 : FVec F S64x1024 .f32 := Host.absf main_arg0
  let main_cst : FVec F S_ .f32 := constant S_ .f32 0x7F800000#32
  let main_v1 : FVec F S64x1024 .f32 := broadcastInDim S64x1024 ![] bcast_S_S64x1024 main_cst
  let main_v2 : IVec S64x1024 1 := cmpf .olt main_v0 main_v1
  let main_c : IVec S_ 1 := constantI S_ 1 1#1
  let main_v3 : IVec S_ 1 := (fun x v => Host.reduce IntOp.andi x v reducesTo_S64x1024_S_d0_1 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S64x1024 : Shape := ⟨2, ![64, 1024]⟩
abbrev S1024x1024 : Shape := ⟨2, ![1024, 1024]⟩
abbrev S1024 : Shape := ⟨1, ![1024]⟩
abbrev S1024x2048 : Shape := ⟨2, ![1024, 2048]⟩
abbrev S1x1024 : Shape := ⟨2, ![1, 1024]⟩
abbrev S_ : Shape := ⟨0, ![]⟩
abbrev S64x1024x1 : Shape := ⟨3, ![64, 1024, 1]⟩
abbrev S64x1024x1024 : Shape := ⟨3, ![64, 1024, 1024]⟩
abbrev S8x128x1 : Shape := ⟨3, ![8, 128, 1]⟩
abbrev S8x1024 : Shape := ⟨2, ![8, 1024]⟩
abbrev S8x128x1024 : Shape := ⟨3, ![8, 128, 1024]⟩
abbrev S8x1x1024 : Shape := ⟨3, ![8, 1, 1024]⟩
abbrev S1x1x1024 : Shape := ⟨3, ![1, 1, 1024]⟩
abbrev S8x128 : Shape := ⟨2, ![8, 128]⟩

abbrev nBuf : Space → Nat
  | .hbm => 31
  | .vmem => 9
  | .smem => 0
  | _ => 0

abbrev bufTy : (tb : Table) → Fin (tcTables nBuf tb) → BufTy
  | .hbm, ⟨0, _⟩ => ⟨S64x1024, .f32⟩
  | .hbm, ⟨1, _⟩ => ⟨S64x1024, .f32⟩
  | .hbm, ⟨2, _⟩ => ⟨S64x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x1024, .f32⟩
  | .hbm, ⟨10, _⟩ => ⟨S64x1024, .f32⟩
  | .hbm, ⟨11, _⟩ => ⟨S1x1024, .f32⟩
  | .hbm, ⟨12, _⟩ => ⟨S64x1024, .f32⟩
  | .hbm, ⟨13, _⟩ => ⟨S64x1024, .f32⟩
  | .hbm, ⟨14, _⟩ => ⟨S1024x1024, .f32⟩
  | .hbm, ⟨15, _⟩ => ⟨S64x1024, .f32⟩
  | .hbm, ⟨16, _⟩ => ⟨S1x1024, .f32⟩
  | .hbm, ⟨17, _⟩ => ⟨S64x1024, .f32⟩
  | .hbm, ⟨18, _⟩ => ⟨S64x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024, .f32⟩
  | .hbm, ⟨23, _⟩ => ⟨S1x1024, .f32⟩
  | .hbm, ⟨24, _⟩ => ⟨S1024x1024, .f32⟩
  | .hbm, ⟨25, _⟩ => ⟨S64x1024, .f32⟩
  | .hbm, ⟨26, _⟩ => ⟨S1x1024, .f32⟩
  | .hbm, ⟨27, _⟩ => ⟨S64x1024, .f32⟩
  | .hbm, ⟨28, _⟩ => ⟨S64x1024, .f32⟩
  | .hbm, ⟨29, _⟩ => ⟨S64x1024x1, .f32⟩
  | .hbm, ⟨30, _⟩ => ⟨S64x1024x1024, .f32⟩
  | .local _ .vmem, ⟨0, _⟩ => ⟨S8x128x1, .f32⟩
  | .local _ .vmem, ⟨1, _⟩ => ⟨S8x128x1, .f32⟩
  | .local _ .vmem, ⟨2, _⟩ => ⟨S8x1024, .f32⟩
  | .local _ .vmem, ⟨3, _⟩ => ⟨S8x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | .local _ .vmem, ⟨7, _⟩ => ⟨S8x128x1024, .f32⟩
  | .local _ .vmem, ⟨8, _⟩ => ⟨S8x128x1024, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  slices_S1024x2048_S1024x1024_0_0 : S1024x2048.Slices ![0, 0] S1024x1024
  slices_S1024x2048_S1024x1024_0_1024 : S1024x2048.Slices ![0, 1024] S1024x1024
  reducesTo_S1024x1024_S1024_d1 : S1024x1024.ReducesTo [1] S1024
  h_S_ : 0 < S_.numel
  shapeCasts_S1024_S1x1024 : S1024.ShapeCasts S1x1024
  shapeCasts_S64x1024_S64x1024x1 : S64x1024.ShapeCasts S64x1024x1
  inb_S8x128x1_S8x128x1_0_0_0 : ∀ a, (![0, 0, 0] : Fin 3 → Nat) a + S8x128x1.size a ≤ S8x128x1.size a
  h_S8x128x1 : 0 < S8x128x1.numel
  shapeCasts_S8x128x1_S8x128x1 : S8x128x1.ShapeCasts S8x128x1
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S8x1024_S8x1x1024 : S8x1024.ShapeCasts S8x1x1024
  broadcasts_S8x128x1_S8x128x1024 : S8x128x1.Broadcasts S8x128x1024
  broadcasts_S8x1x1024_S8x128x1024 : S8x1x1024.Broadcasts S8x128x1024
  shapeCasts_S1x1024_S1x1x1024 : S1x1024.ShapeCasts S1x1x1024
  broadcasts_S1x1x1024_S8x128x1024 : S1x1x1024.Broadcasts S8x128x1024
  reduces_S8x128x1024_S8x128 : S8x128x1024.Reduces [2] S8x128
  shapeCasts_S8x128_S8x128x1 : S8x128.ShapeCasts S8x128x1
  inb_S8x128x1024_S8x128x1024_0_0_0 : ∀ a, (![0, 0, 0] : Fin 3 → Nat) a + S8x128x1024.size a ≤ S8x128x1024.size a
  h_S8x128x1024 : 0 < S8x128x1024.numel
  dot_S64x1024_S1024x1024_S64x1024_1_0_0_1_n_n_wf : DotDims.WF S64x1024 S1024x1024 S64x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x1.size a ≤ S64x1024x1.size a
  hwx0_0 : ∀ i : grid0.Coords, EltTy.bits .f32 = 32 ∨ (Rect.block (s := S64x1024x1) S8x128x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024.size a ≤ S64x1024.size a
  hwx0_1 : ∀ i : grid0.Coords, EltTy.bits .f32 = 32 ∨ (Rect.block (s := S64x1024) S8x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S64x1024.size a
  hwx0_3 : ∀ i : grid0.Coords, EltTy.bits .f32 = 32 ∨ (Rect.block (s := S64x1024) S8x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128x1024.size a ≤ S64x1024x1024.size a
  hwx0_4 : ∀ i : grid0.Coords, EltTy.bits .f32 = 32 ∨ (Rect.block (s := S64x1024x1024) S8x128x1024.size (cc0_transform_4 i) (hinb0_4 i)).WholeWords (EltTy.packing .f32)

variable [Facts₀]

def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf

abbrev win0_0 : Pipeline.Window sig grid0 :=
  Pipeline.Window.ofSpec (Memref.whole main_v19) S8x128x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S8x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S8x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20) S8x128x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x1024 : Shape := ⟨2, ![64, 1024]⟩
abbrev S1024x1024 : Shape := ⟨2, ![1024, 1024]⟩
abbrev S1024 : Shape := ⟨1, ![1024]⟩
abbrev S1024x2048 : Shape := ⟨2, ![1024, 2048]⟩
abbrev S1x1024 : Shape := ⟨2, ![1, 1024]⟩
abbrev S64x1024x1 : Shape := ⟨3, ![64, 1024, 1]⟩
abbrev S64x1x1024 : Shape := ⟨3, ![64, 1, 1024]⟩
abbrev S64x1024x1024 : Shape := ⟨3, ![64, 1024, 1024]⟩
abbrev S_ : Shape := ⟨0, ![]⟩
abbrev S1x1x1024 : Shape := ⟨3, ![1, 1, 1024]⟩

abbrev nBuf : Space → Nat
  | .hbm => 72
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S64x1024, .f32⟩
  | .hbm, ⟨2, _⟩ => ⟨S64x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x1024, .f32⟩
  | .hbm, ⟨10, _⟩ => ⟨S64x1024, .f32⟩
  | .hbm, ⟨11, _⟩ => ⟨S1x1024, .f32⟩
  | .hbm, ⟨12, _⟩ => ⟨S64x1024, .f32⟩
  | .hbm, ⟨13, _⟩ => ⟨S64x1024, .f32⟩
  | .hbm, ⟨14, _⟩ => ⟨S1024x1024, .f32⟩
  | .hbm, ⟨15, _⟩ => ⟨S64x1024, .f32⟩
  | .hbm, ⟨16, _⟩ => ⟨S1x1024, .f32⟩
  | .hbm, ⟨17, _⟩ => ⟨S64x1024, .f32⟩
  | .hbm, ⟨18, _⟩ => ⟨S64x1024, .f32⟩
  | .hbm, ⟨19, _⟩ => ⟨S64x1024x1, .f32⟩
  | .hbm, ⟨20, _⟩ => ⟨S64x1x1024, .f32⟩
  | .hbm, ⟨21, _⟩ => ⟨S64x1024x1024, .f32⟩
  | .hbm, ⟨22, _⟩ => ⟨S64x1024x1024, .f32⟩
  | .hbm, ⟨23, _⟩ => ⟨S64x1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024, .f32⟩
  | .hbm, ⟨28, _⟩ => ⟨S64x1024x1, .f32⟩
  | .hbm, ⟨29, _⟩ => ⟨S1x1x1024, .f32⟩
  | .hbm, ⟨30, _⟩ => ⟨S64x1024x1024, .f32⟩
  | .hbm, ⟨31, _⟩ => ⟨S64x1024x1024, .f32⟩
  | .hbm, ⟨32, _⟩ => ⟨S64x1024x1024, .f32⟩
  | .hbm, ⟨33, _⟩ => ⟨S1024x1024, .f32⟩
  | .hbm, ⟨34, _⟩ => ⟨S64x1024, .f32⟩
  | .hbm, ⟨35, _⟩ => ⟨S1x1024, .f32⟩
  | .hbm, ⟨36, _⟩ => ⟨S64x1024, .f32⟩
  | .hbm, ⟨37, _⟩ => ⟨S64x1024, .f32⟩
  | .hbm, ⟨38, _⟩ => ⟨S64x1x1024, .f32⟩
  | .hbm, ⟨39, _⟩ => ⟨S64x1024x1024, .f32⟩
  | .hbm, ⟨40, _⟩ => ⟨S64x1024x1024, .f32⟩
  | .hbm, ⟨41, _⟩ => ⟨S64x1024x1024, .f32⟩
  | .hbm, ⟨42, _⟩ => ⟨S64x1024x1024, .f32⟩
  | .hbm, ⟨43, _⟩ => ⟨S_, .f32⟩
  | .hbm, ⟨44, _⟩ => ⟨S64x1024x1024, .f32⟩
  | .hbm, ⟨45, _⟩ => ⟨S64x1024x1024, .f32⟩
  | .hbm, ⟨46, _⟩ => ⟨S_, .f32⟩
  | .hbm, ⟨47, _⟩ => ⟨S64x1024x1024, .f32⟩
  | .hbm, ⟨48, _⟩ => ⟨S64x1024x1024, .f32⟩
  | .hbm, ⟨49, _⟩ => ⟨S64x1024x1024, .f32⟩
  | .hbm, ⟨50, _⟩ => ⟨S64x1024x1024, .f32⟩
  | .hbm, ⟨51, _⟩ => ⟨S_, .f32⟩
  | .hbm, ⟨52, _⟩ => ⟨S64x1024x1024, .f32⟩
  | .hbm, ⟨53, _⟩ => ⟨S64x1024x1024, .f32⟩
  | .hbm, ⟨54, _⟩ => ⟨S_, .f32⟩
  | .hbm, ⟨55, _⟩ => ⟨S64x1024x1024, .f32⟩
  | .hbm, ⟨56, _⟩ => ⟨S64x1024x1024, .f32⟩
  | .hbm, ⟨57, _⟩ => ⟨S64x1024x1024, .f32⟩
  | .hbm, ⟨58, _⟩ => ⟨S_, .f32⟩
  | .hbm, ⟨59, _⟩ => ⟨S64x1024, .f32⟩
  | .hbm, ⟨60, _⟩ => ⟨S_, .f32⟩
  | .hbm, ⟨61, _⟩ => ⟨S64x1024, .f32⟩
  | .hbm, ⟨62, _⟩ => ⟨S64x1024, .f32⟩
  | .hbm, ⟨63, _⟩ => ⟨S64x1024x1, .f32⟩
  | .hbm, ⟨64, _⟩ => ⟨S64x1024x1024, .f32⟩
  | .hbm, ⟨65, _⟩ => ⟨S64x1024x1024, .f32⟩
  | .hbm, ⟨66, _⟩ => ⟨S64x1024x1024, .f32⟩
  | .hbm, ⟨67, _⟩ => ⟨S_, .f32⟩
  | .hbm, ⟨68, _⟩ => ⟨S64x1024, .f32⟩
  | .hbm, ⟨69, _⟩ => ⟨S64x1024x1, .f32⟩
  | .hbm, ⟨70, _⟩ => ⟨S64x1024x1024, .f32⟩
  | .hbm, ⟨71, _⟩ => ⟨S64x1024x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_0 : Ref sig .tc := ⟨.hbm, 43, rfl⟩
abbrev main_v33 : Ref sig .tc := ⟨.hbm, 44, rfl⟩
abbrev main_v34 : Ref sig .tc := ⟨.hbm, 45, rfl⟩
abbrev main_cst_1 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_2 : Ref sig .tc := ⟨.hbm, 51, rfl⟩
abbrev main_v39 : Ref sig .tc := ⟨.hbm, 52, rfl⟩
abbrev main_v40 : Ref sig .tc := ⟨.hbm, 53, rfl⟩
abbrev main_cst_3 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_4 : Ref sig .tc := ⟨.hbm, 58, rfl⟩
abbrev main_v44 : Ref sig .tc := ⟨.hbm, 59, rfl⟩
abbrev main_cst_5 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_6 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  bcast_S64x1024_S64x1024x1_0_1 : S64x1024.BroadcastsInDim S64x1024x1 (![0, 1] : Fin 2 → Fin S64x1024x1.rank)
  bcast_S64x1024_S64x1x1024_0_2 : S64x1024.BroadcastsInDim S64x1x1024 (![0, 2] : Fin 2 → Fin S64x1x1024.rank)
  bcast_S64x1024x1_S64x1024x1024_0_1_2 : S64x1024x1.BroadcastsInDim S64x1024x1024 (![0, 1, 2] : Fin 3 → Fin S64x1024x1024.rank)
  bcast_S64x1x1024_S64x1024x1024_0_1_2 : S64x1x1024.BroadcastsInDim S64x1024x1024 (![0, 1, 2] : Fin 3 → Fin S64x1024x1024.rank)
  slices_S1024x2048_S1024x1024_0_0 : S1024x2048.Slices ![0, 0] S1024x1024
  slices_S1024x2048_S1024x1024_0_1024 : S1024x2048.Slices ![0, 1024] S1024x1024
  reducesTo_S1024x1024_S1024_d1 : S1024x1024.ReducesTo [1] S1024
  h_S_ : 0 < S_.numel
  bcast_S1024_S1x1x1024_2 : S1024.BroadcastsInDim S1x1x1024 (![2] : Fin 1 → Fin S1x1x1024.rank)
  bcast_S1x1x1024_S64x1024x1024_0_1_2 : S1x1x1024.BroadcastsInDim S64x1024x1024 (![0, 1, 2] : Fin 3 → Fin S64x1024x1024.rank)
  bcast_S_S64x1024x1024 : S_.BroadcastsInDim S64x1024x1024 (![] : Fin 0 → Fin S64x1024x1024.rank)
  reducesTo_S64x1024x1024_S64x1024_d2 : S64x1024x1024.ReducesTo [2] S64x1024
  bcast_S_S64x1024 : S_.BroadcastsInDim S64x1024 (![] : Fin 0 → Fin S64x1024.rank)
  dot_S64x1024_S1024x1024_S64x1024_1_0_0_1_n_n_wf : DotDims.WF S64x1024 S1024x1024 S64x1024 [1] [0] [0] [1] [] []

variable [Facts₀]

def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf

class Facts : Prop extends Facts₀ where

variable [Facts]
-- ==== Proof.Softmax.lean ====
/-
  One row of gated scores and its softmax, on the extended reals.

  A score row is `v k = a · p k · σ(σ(a · w k + g k))` over the 1024 key positions `k`, where `a` is the
  query projection at one (batch, query row), `p`, `g` the key projection and the key half of the gate at that
  batch, `w` the row sums of the query half of the gate weight, and `σ` the logistic function, applied twice.
  The result row is `exp (v j - M) / ∑ k, exp (v k - M)` with `M` the row's maximum, a fold of `max` from the
  word of `-∞`.

  The logistic function is written in two ways: through the hyperbolic tangent, `½ · tanh (½ · x) + ½`, and as
  the quotient `1 / (1 + exp (-x))`. They are one function on every extended real (`sigT_eq_sigE`): on a real
  `x`, with `a = exp (x/2)`, both are `a² / (a² + 1)`; at `+∞` both are `1` (`tanh ⊤ = 1`, `exp ⊥ = 0`), at
  `-∞` both are `0` (`tanh ⊥ = -1`, `1 / ⊤ = 0`). No finiteness of the inputs is used anywhere.
-/
import Idealize.ShloMosaic.PureOps.Ideal
import Idealize.ShloMosaic.PureOps.Ideal.Laws
import Idealize.ShloMosaic.Lib.ValueIdx

noncomputable section

namespace Cert.GatedSoftmax

open Idealize.ShloMosaic Idealize.ShloMosaic.ValueIdx

/-! ## The three float words of the two programs that are read as numbers -/

/-- The word of `0.5` denotes the real `1/2`. -/
theorem half_word : Ideal.ofBits .f32 0x3F000000#32 = ((1 / 2 : ℝ) : EReal) := by
  simp [Ideal.ofBits, Ideal.ieee, -EReal.coe_mul]; norm_num

/-- The word of `1.0` denotes `1`. -/
theorem one_word : Ideal.ofBits .f32 0x3F800000#32 = 1 := by
  simp [Ideal.ofBits, Ideal.ieee, -EReal.coe_mul]; norm_num

/-! ## The logistic function, twice spelt -/

/-- Through the hyperbolic tangent: `½ · tanh (½ · x) + ½`. -/
def sigT (x : EReal) : EReal :=
  Ideal.ofBits .f32 0x3F000000#32 * Ideal.tanh (Ideal.ofBits .f32 0x3F000000#32 * x) + Ideal.ofBits .f32 0x3F000000#32

/-- As a quotient: `1 / (1 + exp (-x))`. -/
def sigE (x : EReal) : EReal :=
  Ideal.div (Ideal.ofBits .f32 0x3F800000#32) (Ideal.ofBits .f32 0x3F800000#32 + Ideal.exp (-x))

/-- On the reals: with `a = exp (r/2)`, `tanh (r/2) = (a - 1/a) / (a + 1/a)` and `exp (-r) = 1/a²`, so both
    sides are `a² / (a² + 1)`. -/
theorem half_tanh_half (r : ℝ) : (1 / 2 : ℝ) * Real.tanh ((1 / 2) * r) + 1 / 2 = (1 + Real.exp (-r))⁻¹ := by
  have hneg : Real.exp (-r) = Real.exp (-((1 / 2) * r)) * Real.exp (-((1 / 2) * r)) := by
    rw [← Real.exp_add]; congr 1; ring
  rw [Real.tanh_eq_sinh_div_cosh, Real.sinh_eq, Real.cosh_eq, hneg, Real.exp_neg]
  have hpos : 0 < Real.exp ((1 / 2) * r) := Real.exp_pos _
  generalize Real.exp ((1 / 2) * r) = a at hpos
  have ha : a ≠ 0 := hpos.ne'
  have h1 : a + a⁻¹ ≠ 0 := by positivity
  have h2 : 1 + a⁻¹ * a⁻¹ ≠ 0 := by positivity
  field_simp
  ring

/-- The two spellings are one function on every extended real. -/
theorem sigT_eq_sigE (x : EReal) : sigT x = sigE x := by
  unfold sigT sigE
  rw [half_word, one_word]
  show _ = Ideal.logistic x
  induction x using EReal.rec with
  | bot =>
    rw [Ideal.logistic_bot, EReal.coe_mul_bot_of_pos (by norm_num), Ideal.tanh_bot,
      show (-1 : EReal) = ((-1 : ℝ) : EReal) by rw [EReal.coe_neg, EReal.coe_one],
      ← EReal.coe_mul, ← EReal.coe_add]
    norm_num
  | coe r =>
    rw [Ideal.logistic_coe, ← EReal.coe_mul, Ideal.tanh_coe, ← EReal.coe_mul, ← EReal.coe_add, half_tanh_half]
  | top =>
    rw [Ideal.logistic_top, EReal.coe_mul_top_of_pos (by norm_num), Ideal.tanh_top, mul_one, ← EReal.coe_add]
    norm_num

/-! ## A row: its gated scores, its maximum, its softmax -/

/-- One gated score, the gate's logistic through the hyperbolic tangent. -/
def gateT (a p w g : EReal) : EReal := a * p * sigT (sigT (a * w + g))

/-- One gated score, the gate's logistic as a quotient. -/
def gateE (a p w g : EReal) : EReal := a * p * sigE (sigE (a * w + g))

theorem gateT_eq_gateE (a p w g : EReal) : gateT a p w g = gateE a p w g := by
  unfold gateT gateE; rw [sigT_eq_sigE, sigT_eq_sigE]

/-- A row's maximum: the fold of `max` over the row, from the word of `-∞`. -/
def rowMax (v : Fin 1024 → EReal) : EReal :=
  (Finset.univ : Finset (Fin 1024)).fold max (Ideal.ofBits .f32 0xFF800000#32) v

/-- The fold starts at that word, so it is at least that word: one more `max` with it changes nothing. -/
theorem max_rowMax (v : Fin 1024 → EReal) : max (Ideal.ofBits .f32 0xFF800000#32) (rowMax v) = rowMax v :=
  max_eq_right ((Finset.le_fold_max _).2 (Or.inl le_rfl))

/-- The row's softmax at `j`. -/
def softRow (v : Fin 1024 → EReal) (j : Fin 1024) : EReal :=
  Ideal.div (Ideal.exp (v j - rowMax v)) (∑ k : Fin 1024, Ideal.exp (v k - rowMax v))

/-! ## The whole result, as one function of the four projected arrays -/

/-- The result at batch `b`, query row `r`, key position `j`: the softmax over the key positions of the gated
    scores of `(b, r)`. `QP` is the query projection, `KP` the key projection, `W1` the row sums of the query
    half of the gate weight, `KG` the key half of the gate (with its bias). -/
def attn (QP KP : (⟨2, ![64, 1024]⟩ : Shape).Idx → EReal) (W1 : (⟨1, ![1024]⟩ : Shape).Idx → EReal)
    (KG : (⟨2, ![64, 1024]⟩ : Shape).Idx → EReal) (b : Fin 64) (r : Fin 1024) (j : Fin 1024) : EReal :=
  softRow (fun k => gateT (QP (ix2 b r)) (KP (ix2 b k)) (W1 (ix1 k)) (KG (ix2 b k))) j

/-- The result array. -/
def result (QP KP : (⟨2, ![64, 1024]⟩ : Shape).Idx → EReal) (W1 : (⟨1, ![1024]⟩ : Shape).Idx → EReal)
    (KG : (⟨2, ![64, 1024]⟩ : Shape).Idx → EReal) : (⟨3, ![64, 1024, 1024]⟩ : Shape).Idx → EReal :=
  fun i => attn QP KP W1 KG (i 0) (i 1) (i 2)

end Cert.GatedSoftmax

end
-- ==== Proof.RefSide.lean ====
/-
  The reference's result, read index by index, is the softmax of the gated score rows of the four projected arrays.

  Each element `(b, r, j)` of the reference's last stage depends on the query projection at `(b, r)`, the key
  projection and the key half of the gate at `(b, k)`, and the row sum of the gate weight at `k`, over the key
  positions `k`: the broadcasts only repeat those elements. The row maximum is a fold of `max` from the word of
  `-∞`, once more maximised with that word, which changes nothing; the row sum starts from the word of `0`.
  The reference spells the gate's logistic as the quotient `1 / (1 + exp (-x))`; the result is stated with the
  hyperbolic-tangent spelling, the same function.
-/
import proofs.«112889_j27324581937373_2_alg».proof.Proof.Gen.ReferenceIdeal.Read
import proofs.«112889_j27324581937373_2_alg».proof.Proof.Softmax
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open Cert.GatedSoftmax

variable (x0 x1 : (⟨S64x1024, .f32⟩ : BufTy).Contents (Elt Ideal)) (x3 : (⟨S1024x1024, .f32⟩ : BufTy).Contents (Elt Ideal))
  (x4 : (⟨S1024, .f32⟩ : BufTy).Contents (Elt Ideal)) (x5 : (⟨S1024x1024, .f32⟩ : BufTy).Contents (Elt Ideal))
  (x6 : (⟨S1024, .f32⟩ : BufTy).Contents (Elt Ideal)) (x7 : (⟨S1024x2048, .f32⟩ : BufTy).Contents (Elt Ideal))
  (x8 : (⟨S1024, .f32⟩ : BufTy).Contents (Elt Ideal))

/-- The gated score at `(b, r, k)`: the product of the two projections times the twice-applied logistic of the gate's
    pre-activation, each operand read where the broadcasts take it from. -/
theorem score_apply (b : Fin 64) (r k : Fin 1024) :
    val_main_v43 (F := Ideal) x0 x1 x3 x4 x5 x6 x7 x8 (ix3 b r k)
      = gateE (val_main_v4 (F := Ideal) x0 x3 x4 (ix2 b r)) (val_main_v9 (F := Ideal) x1 x5 x6 (ix2 b k))
          (val_main_v17 (F := Ideal) x7 (ix1 k)) (val_main_v27 (F := Ideal) x1 x5 x6 x7 x8 (ix2 b k)) := by
  have e1 : idx_main_v10 (idx_main_v12 (ix3 b r k)) = ix2 b r :=
    funext fun a => Fin.ext (by match a with | ⟨0, _⟩ => rfl | ⟨1, _⟩ => rfl)
  have e2 : idx_main_v11 (idx_main_v13 (ix3 b r k)) = ix2 b k :=
    funext fun a => Fin.ext (by match a with | ⟨0, _⟩ => rfl | ⟨1, _⟩ => rfl)
  have e3 : idx_main_v18 (idx_main_v20 (ix3 b r k)) = ix2 b r :=
    funext fun a => Fin.ext (by match a with | ⟨0, _⟩ => rfl | ⟨1, _⟩ => rfl)
  have e4 : idx_main_v19 (idx_main_v21 (ix3 b r k)) = ix1 k :=
    funext fun a => Fin.ext (by match a with | ⟨0, _⟩ => rfl)
  have e5 : idx_main_v28 (idx_main_v29 (ix3 b r k)) = ix2 b k :=
    funext fun a => Fin.ext (by match a with | ⟨0, _⟩ => rfl | ⟨1, _⟩ => rfl)
  rw [val_main_v43_apply, val_main_v14_apply, val_main_v12_apply, val_main_v10_apply, e1, val_main_v13_apply,
    val_main_v11_apply, e2, val_main_v42_apply, val_main_v41_apply, val_main_cst_3_apply, val_main_v40_apply,
    val_main_v39_apply, val_main_cst_2_apply, val_main_v38_apply, val_main_v37_apply, val_main_v36_apply,
    val_main_v35_apply, val_main_cst_1_apply, val_main_v34_apply, val_main_v33_apply, val_main_cst_0_apply,
    val_main_v32_apply, val_main_v31_apply, val_main_v30_apply, val_main_v22_apply, val_main_v20_apply,
    val_main_v18_apply, e3, val_main_v21_apply, val_main_v19_apply, e4, val_main_v29_apply, val_main_v28_apply, e5]
  rfl

/-- The row maximum at `(b, r)`: the fold of `max` over the key positions of the gated scores. -/
theorem rowmax_apply (b : Fin 64) (r : Fin 1024) :
    val_main_v44 (F := Ideal) x0 x1 x3 x4 x5 x6 x7 x8 (ix2 b r)
      = rowMax (fun k => val_main_v43 (F := Ideal) x0 x1 x3 x4 x5 x6 x7 x8 (ix3 b r k)) := by
  have h : S64x1024x1024.Reduces [2] S64x1024 := by decide
  unfold val_main_v44
  refine (Host.reduce_eq_fold_single (FloatOps.maximumf (F := Ideal) (φ := .f32)) _ _
    reducesTo_S64x1024x1024_S64x1024_d2 h h_S_ (ix2 b r)).trans ?_
  unfold rowMax
  show Finset.fold max (Ideal.ofBits .f32 0xFF800000#32)
      (fun k : Fin 1024 => val_main_v43 (F := Ideal) x0 x1 x3 x4 x5 x6 x7 x8 (h.lift (ix2 b r) k)) Finset.univ = _
  refine congrArg (fun f => Finset.fold max (Ideal.ofBits .f32 0xFF800000#32) f Finset.univ) (funext fun k => ?_)
  exact congrArg (val_main_v43 (F := Ideal) x0 x1 x3 x4 x5 x6 x7 x8)
    (funext fun a => Fin.ext (by match a with | ⟨0, _⟩ => rfl | ⟨1, _⟩ => rfl | ⟨2, _⟩ => rfl))

/-- The reference's last stage at `(b, r, j)` is the softmax at `j` of the row of gated scores of `(b, r)`. -/
theorem softmax_apply (b : Fin 64) (r j : Fin 1024) :
    val_main_v54 (F := Ideal) x0 x1 x3 x4 x5 x6 x7 x8 (ix3 b r j)
      = softRow (fun k => val_main_v43 (F := Ideal) x0 x1 x3 x4 x5 x6 x7 x8 (ix3 b r k)) j := by
  have e47 : ∀ k : Fin 1024, idx_main_v47 (idx_main_v48 (ix3 b r k)) = ix2 b r := fun k =>
    funext fun a => Fin.ext (by match a with | ⟨0, _⟩ => rfl | ⟨1, _⟩ => rfl)
  have e52 : idx_main_v52 (idx_main_v53 (ix3 b r j)) = ix2 b r :=
    funext fun a => Fin.ext (by match a with | ⟨0, _⟩ => rfl | ⟨1, _⟩ => rfl)
  have e51 : ∀ k : Fin 1024, idx_main_v51 (ix2 b r) k = ix3 b r k := fun k =>
    funext fun a => Fin.ext (by match a with | ⟨0, _⟩ => rfl | ⟨1, _⟩ => rfl | ⟨2, _⟩ => rfl)
  have hm : val_main_v46 (F := Ideal) x0 x1 x3 x4 x5 x6 x7 x8 (ix2 b r)
      = rowMax (fun k => val_main_v43 (F := Ideal) x0 x1 x3 x4 x5 x6 x7 x8 (ix3 b r k)) := by
    rw [val_main_v46_apply, val_main_v45_apply, val_main_cst_5_apply, rowmax_apply]
    exact max_rowMax _
  have h50 : ∀ k : Fin 1024, val_main_v50 (F := Ideal) x0 x1 x3 x4 x5 x6 x7 x8 (ix3 b r k)
      = Ideal.exp (val_main_v43 (F := Ideal) x0 x1 x3 x4 x5 x6 x7 x8 (ix3 b r k)
          - rowMax (fun k => val_main_v43 (F := Ideal) x0 x1 x3 x4 x5 x6 x7 x8 (ix3 b r k))) := by
    intro k
    rw [val_main_v50_apply, val_main_v49_apply, val_main_v48_apply, val_main_v47_apply, e47 k, hm]
    rfl
  rw [val_main_v54_apply, val_main_v53_apply, val_main_v52_apply, e52, val_main_v51_apply, h50 j, val_main_cst_6_apply]
  simp only [e51, h50]
  show Ideal.div _ (Ideal.ofBits .f32 0x00000000#32 + _) = _
  rw [Ideal.ofBits_zero_f32, zero_add]
  rfl

/-- THE REFERENCE'S RESULT is the softmax of the gated score rows of its four projected arrays: the query projection
    (stage 4), the key projection (stage 9), the gate weight's row sums (stage 17) and the key half of the gate (stage 27). -/
theorem ref_eq :
    val_main_v54 (F := Ideal) x0 x1 x3 x4 x5 x6 x7 x8
      = result (val_main_v4 (F := Ideal) x0 x3 x4) (val_main_v9 (F := Ideal) x1 x5 x6) (val_main_v17 (F := Ideal) x7)
          (val_main_v27 (F := Ideal) x1 x5 x6 x7 x8) := by
  funext i
  obtain ⟨b, r, j, rfl⟩ : ∃ (b : Fin 64) (r j : Fin 1024), i = ix3 b r j := ⟨i 0, i 1, i 2, eq_ix3 i⟩
  rw [softmax_apply]
  show softRow _ j = softRow _ j
  refine congrArg (fun v => softRow v j) (funext fun k => ?_)
  rw [score_apply, gateT_eq_gateE]

end Cert.ReferenceIdeal.RefValue

end
-- ==== Proof.KernelBlock.lean ====
/-
  What the kernel body leaves in one output block, read index by index.

  A grid point's body loads a column block `P0` of the query projection (8 batches × 128 query rows × 1), the row
  blocks `P1`, `P3` of the key projection and of the key half of the gate (8 batches × 1024 keys) and the row `P2`
  of the gate weight's row sums (1 × 1024 keys). It broadcasts each to the block's shape 8 × 128 × 1024, forms the
  gated scores there, and takes over the last axis the maximum, the exponentials of the differences and their sum.
  Read at `(b, r, j)` the block is therefore the softmax at `j` of the row of gated scores
  `k ↦ P0 (b, r, 0) · P1 (b, k) · σ(σ(P0 (b, r, 0) · P2 (0, k) + P3 (b, k)))`, the gate's logistic through the
  hyperbolic tangent: the maximum over the last axis is the fold of `max` over the key positions from the word of
  `-∞`, the sum over the last axis the sum over the key positions.
-/
import proofs.«112889_j27324581937373_2_alg».proof.Proof.Gen.KernelIdeal.Value
import proofs.«112889_j27324581937373_2_alg».proof.Proof.Softmax
import Idealize.ShloMosaic.PureOps.Ideal.Laws
import Idealize.ShloMosaic.Lib.ValueIdx
import Idealize.ShloMosaic.Lib.Pipeline.Value

noncomputable section

namespace Cert.KernelIdeal.Block

open Cert.KernelIdeal Cert.KernelIdeal.Gen Cert.KernelIdeal.Value Idealize.ShloMosaic Idealize.ShloMosaic.ValueIdx
open Cert.GatedSoftmax

/-! ## The four broadcasts of the body, read at an index -/

/-- A column block, repeated along the keys. -/
def bcol (P : FVec Ideal S8x128x1 .f32) : FVec Ideal S8x128x1024 .f32 :=
  broadcastTo S8x128x1024 (shapeCast S8x128x1 P shapeCasts_S8x128x1_S8x128x1) broadcasts_S8x128x1_S8x128x1024

/-- A row block per batch, repeated along the query rows. -/
def brow (P : FVec Ideal S8x1024 .f32) : FVec Ideal S8x128x1024 .f32 :=
  broadcastTo S8x128x1024 (shapeCast S8x1x1024 (shapeCast S8x1024 P shapeCasts_S8x1024_S8x1024) shapeCasts_S8x1024_S8x1x1024)
    broadcasts_S8x1x1024_S8x128x1024

/-- One row, repeated along the batches and the query rows. -/
def bkeys (P : FVec Ideal S1x1024 .f32) : FVec Ideal S8x128x1024 .f32 :=
  broadcastTo S8x128x1024 (shapeCast S1x1x1024 (shapeCast S1x1024 P shapeCasts_S1x1024_S1x1024) shapeCasts_S1x1024_S1x1x1024)
    broadcasts_S1x1x1024_S8x128x1024

/-- One value per (batch, query row), repeated along the keys. -/
def bval (M : FVec Ideal S8x128 .f32) : FVec Ideal S8x128x1024 .f32 :=
  broadcastTo S8x128x1024 (shapeCast S8x128x1 M shapeCasts_S8x128_S8x128x1) broadcasts_S8x128x1_S8x128x1024

theorem bcol_apply (P : FVec Ideal S8x128x1 .f32) (b : Fin 8) (r : Fin 128) (k : Fin 1024) :
    bcol P (ix3 b r k) = P (ix3 b r 0) := by
  unfold bcol
  refine (broadcastTo_apply _ _ (ix3 b r k) (ix3 b r (0 : Fin 1)) (fun a => ?_)).trans ?_
  · match a with
    | ⟨0, _⟩ => show b.val = (if (8 : Nat) = 1 then 0 else b.val); rw [if_neg (by decide)]
    | ⟨1, _⟩ => show r.val = (if (128 : Nat) = 1 then 0 else r.val); rw [if_neg (by decide)]
    | ⟨2, _⟩ => show 0 = (if (1 : Nat) = 1 then 0 else k.val); rw [if_pos rfl]
  · rw [shapeCast_self]

theorem brow_apply (P : FVec Ideal S8x1024 .f32) (b : Fin 8) (r : Fin 128) (k : Fin 1024) :
    brow P (ix3 b r k) = P (ix2 b k) := by
  unfold brow
  refine (broadcastTo_apply _ _ (ix3 b r k) (ix3 b (0 : Fin 1) k) (fun a => ?_)).trans ?_
  · match a with
    | ⟨0, _⟩ => show b.val = (if (8 : Nat) = 1 then 0 else b.val); rw [if_neg (by decide)]
    | ⟨1, _⟩ => show 0 = (if (1 : Nat) = 1 then 0 else r.val); rw [if_pos rfl]
    | ⟨2, _⟩ => show k.val = (if (1024 : Nat) = 1 then 0 else k.val); rw [if_neg (by decide)]
  · rw [shapeCast_self]
    exact shapeCast_apply _ _ (ix3 b (0 : Fin 1) k) (ix2 b k) (by
      rw [Shape.rowMajor_val_two, Shape.rowMajor_val_three]
      show b.val * 1024 + k.val = (b.val * 1 + 0) * 1024 + k.val
      omega)

theorem bkeys_apply (P : FVec Ideal S1x1024 .f32) (b : Fin 8) (r : Fin 128) (k : Fin 1024) :
    bkeys P (ix3 b r k) = P (ix2 0 k) := by
  unfold bkeys
  refine (broadcastTo_apply _ _ (ix3 b r k) (ix3 (0 : Fin 1) (0 : Fin 1) k) (fun a => ?_)).trans ?_
  · match a with
    | ⟨0, _⟩ => show 0 = (if (1 : Nat) = 1 then 0 else b.val); rw [if_pos rfl]
    | ⟨1, _⟩ => show 0 = (if (1 : Nat) = 1 then 0 else r.val); rw [if_pos rfl]
    | ⟨2, _⟩ => show k.val = (if (1024 : Nat) = 1 then 0 else k.val); rw [if_neg (by decide)]
  · rw [shapeCast_self]
    exact shapeCast_apply _ _ (ix3 (0 : Fin 1) (0 : Fin 1) k) (ix2 (0 : Fin 1) k) (by
      rw [Shape.rowMajor_val_two, Shape.rowMajor_val_three]
      show 0 * 1024 + k.val = (0 * 1 + 0) * 1024 + k.val
      omega)

theorem bval_apply (M : FVec Ideal S8x128 .f32) (b : Fin 8) (r : Fin 128) (k : Fin 1024) :
    bval M (ix3 b r k) = M (ix2 b r) := by
  unfold bval
  refine (broadcastTo_apply _ _ (ix3 b r k) (ix3 b r (0 : Fin 1)) (fun a => ?_)).trans ?_
  · match a with
    | ⟨0, _⟩ => show b.val = (if (8 : Nat) = 1 then 0 else b.val); rw [if_neg (by decide)]
    | ⟨1, _⟩ => show r.val = (if (128 : Nat) = 1 then 0 else r.val); rw [if_neg (by decide)]
    | ⟨2, _⟩ => show 0 = (if (1 : Nat) = 1 then 0 else k.val); rw [if_pos rfl]
  · exact shapeCast_apply _ _ (ix3 b r (0 : Fin 1)) (ix2 b r) (by
      rw [Shape.rowMajor_val_two, Shape.rowMajor_val_three]
      show b.val * 128 + r.val = (b.val * 128 + r.val) * 1 + 0
      omega)

/-! ## The body's vectors -/

variable (P0 : FVec Ideal S8x128x1 .f32) (P1 : FVec Ideal S8x1024 .f32) (P2 : FVec Ideal S1x1024 .f32) (P3 : FVec Ideal S8x1024 .f32)

/-- The logistic of a whole vector, as the body spells it: `½ · tanh (½ · X) + ½`. -/
def sigVec (X : FVec Ideal S8x128x1024 .f32) : FVec Ideal S8x128x1024 .f32 :=
  addf (mulf (broadcast S8x128x1024 (Scalar.ofBits .f32 0x3F000000#32)) (tanh (mulf (broadcast S8x128x1024 (Scalar.ofBits .f32 0x3F000000#32)) X))) (broadcast S8x128x1024 (Scalar.ofBits .f32 0x3F000000#32))

/-- The block's gated scores. -/
def scores : FVec Ideal S8x128x1024 .f32 :=
  mulf (mulf (bcol P0) (brow P1)) (sigVec (sigVec (addf (mulf (bcol P0) (bkeys P2)) (brow P3))))

/-- Their maxima over the keys. -/
def rowMaxVec : FVec Ideal S8x128 .f32 :=
  multiReduction .maximumf [2] S8x128 (scores P0 P1 P2 P3) 0xFF800000#32 reduces_S8x128x1024_S8x128 (.inl rfl) rfl

/-- The exponentials of the scores less their row's maximum. -/
def expVec : FVec Ideal S8x128x1024 .f32 :=
  exp (subf (scores P0 P1 P2 P3) (bval (rowMaxVec P0 P1 P2 P3)))

/-- Their sums over the keys. -/
def rowSumVec : FVec Ideal S8x128 .f32 :=
  multiReduction .add [2] S8x128 (expVec P0 P1 P2 P3) 0x00000000#32 reduces_S8x128x1024_S8x128 (.inl rfl) rfl

/-- A gated score of the block at `(b, r, k)`. -/
theorem scores_apply (b : Fin 8) (r : Fin 128) (k : Fin 1024) :
    scores P0 P1 P2 P3 (ix3 b r k) = gateT (P0 (ix3 b r 0)) (P1 (ix2 b k)) (P2 (ix2 0 k)) (P3 (ix2 b k)) := by
  show gateT (bcol P0 (ix3 b r k)) (brow P1 (ix3 b r k)) (bkeys P2 (ix3 b r k)) (brow P3 (ix3 b r k)) = _
  rw [bcol_apply, brow_apply, bkeys_apply, brow_apply]

/-- The index over `(b, r)` whose key coordinate is `k`. -/
theorem lift_eq (b : Fin 8) (r : Fin 128) (k : Fin 1024) :
    (reduces_S8x128x1024_S8x128 : S8x128x1024.Reduces [2] S8x128).lift (ix2 b r) k = ix3 b r k :=
  funext fun a => Fin.ext (by match a with | ⟨0, _⟩ => rfl | ⟨1, _⟩ => rfl | ⟨2, _⟩ => rfl)

/-- The row maximum at `(b, r)`: the fold of `max` over the keys, from the word of `-∞`. -/
theorem rowMaxVec_apply (b : Fin 8) (r : Fin 128) :
    rowMaxVec P0 P1 P2 P3 (ix2 b r) = rowMax (fun k => scores P0 P1 P2 P3 (ix3 b r k)) := by
  unfold rowMaxVec rowMax
  refine (Ideal.multiReduction_maximumf_single (scores P0 P1 P2 P3) 0xFF800000#32 reduces_S8x128x1024_S8x128 (.inl rfl) rfl
    (ix2 b r)).trans ?_
  show Finset.fold max (Ideal.ofBits .f32 0xFF800000#32)
      (fun k : Fin 1024 => scores P0 P1 P2 P3 ((reduces_S8x128x1024_S8x128 : S8x128x1024.Reduces [2] S8x128).lift (ix2 b r) k))
      Finset.univ = _
  refine congrArg (fun f => Finset.fold max (Ideal.ofBits .f32 0xFF800000#32) f Finset.univ) (funext fun k => ?_)
  rw [lift_eq]

/-- An exponential of the block at `(b, r, k)`. -/
theorem expVec_apply (b : Fin 8) (r : Fin 128) (k : Fin 1024) :
    expVec P0 P1 P2 P3 (ix3 b r k)
      = Ideal.exp (scores P0 P1 P2 P3 (ix3 b r k) - rowMax (fun k => scores P0 P1 P2 P3 (ix3 b r k))) := by
  show Ideal.exp (scores P0 P1 P2 P3 (ix3 b r k) - bval (rowMaxVec P0 P1 P2 P3) (ix3 b r k)) = _
  rw [bval_apply, rowMaxVec_apply]

/-- The row sum at `(b, r)`: the sum over the keys of the exponentials. -/
theorem rowSumVec_apply (b : Fin 8) (r : Fin 128) :
    rowSumVec P0 P1 P2 P3 (ix2 b r) = ∑ k : Fin 1024, expVec P0 P1 P2 P3 (ix3 b r k) := by
  unfold rowSumVec
  refine (Ideal.multiReduction_add_single (expVec P0 P1 P2 P3) 0x00000000#32 reduces_S8x128x1024_S8x128 (.inl rfl) rfl
    (ix2 b r)).trans ?_
  show ∑ k : Fin 1024, expVec P0 P1 P2 P3 ((reduces_S8x128x1024_S8x128 : S8x128x1024.Reduces [2] S8x128).lift (ix2 b r) k) = _
  refine Finset.sum_congr rfl fun k _ => ?_
  rw [lift_eq]

/-! ## The block -/

/-- THE BLOCK at `(b, r, j)`: the softmax at `j` of the row of gated scores of `(b, r)`. -/
theorem block_apply (b : Fin 8) (r : Fin 128) (j : Fin 1024) :
    E4 (F := Ideal) P0 P1 P2 P3 (ix3 b r j)
      = softRow (fun k => gateT (P0 (ix3 b r 0)) (P1 (ix2 b k)) (P2 (ix2 0 k)) (P3 (ix2 b k))) j := by
  have e0 : ix4_0 (ix3 b r j) = ix3 b r (0 : Fin 1) :=
    funext fun a => Fin.ext (by match a with | ⟨0, _⟩ => rfl | ⟨1, _⟩ => rfl | ⟨2, _⟩ => rfl)
  have e1 : ix4_1 (ix3 b r j) = ix2 b j :=
    funext fun a => Fin.ext (by match a with | ⟨0, _⟩ => rfl | ⟨1, _⟩ => rfl)
  have e2 : ix4_2 (ix3 b r j) = ix3 b r (0 : Fin 1) :=
    funext fun a => Fin.ext (by match a with | ⟨0, _⟩ => rfl | ⟨1, _⟩ => rfl | ⟨2, _⟩ => rfl)
  have e3 : ix4_3 (ix3 b r j) = ix2 (0 : Fin 1) j :=
    funext fun a => Fin.ext (by match a with | ⟨0, _⟩ => rfl | ⟨1, _⟩ => rfl)
  have e4 : ix4_4 (ix3 b r j) = ix2 b j :=
    funext fun a => Fin.ext (by match a with | ⟨0, _⟩ => rfl | ⟨1, _⟩ => rfl)
  have e5 : ix4_5 (ix3 b r j) = ix2 b r :=
    funext fun a => Fin.ext (by match a with | ⟨0, _⟩ => rfl | ⟨1, _⟩ => rfl)
  have e6 : ix4_6 (ix3 b r j) = ix2 b r :=
    funext fun a => Fin.ext (by match a with | ⟨0, _⟩ => rfl | ⟨1, _⟩ => rfl)
  show Ideal.div (Ideal.exp (gateT (P0 (ix4_0 (ix3 b r j))) (P1 (ix4_1 (ix3 b r j))) (P2 (ix4_3 (ix3 b r j))) (P3 (ix4_4 (ix3 b r j)))
      - rowMaxVec P0 P1 P2 P3 (ix4_5 (ix3 b r j)))) (rowSumVec P0 P1 P2 P3 (ix4_6 (ix3 b r j))) = _
  rw [e0, e1, e3, e4, e5, e6, rowMaxVec_apply, rowSumVec_apply]
  simp only [expVec_apply, scores_apply]
  rfl

end Cert.KernelIdeal.Block

end
-- ==== Proof.KernelArray.lean ====
/-
  The kernel's result array, whole: the softmax of the gated score rows of the four arrays its windows stage.

  The grid has 8 × 8 points; point `(p, q)` writes block `(p, q, 0)` of the [64, 1024, 1024] result: batches
  `8p … 8p + 7`, query rows `128q … 128q + 127`, every key. Its input blocks are the same batches and query rows of
  the query-projection column array [64, 1024, 1], the same batches of the two [64, 1024] key arrays, and the whole
  [1, 1024] row of gate-weight sums. A softmax row lies inside one block, so what the point writes is that block
  of the whole-array function (`flushed_eq`); the 64 blocks tile the array (`cover`: the point of element
  `(b, r, j)` is `(b / 8, r / 128)`); hence the array after the run is the whole-array function (`final`).
-/
import proofs.«112889_j27324581937373_2_alg».proof.Proof.Gen.KernelIdeal.Value
import proofs.«112889_j27324581937373_2_alg».proof.Proof.KernelBlock
import proofs.«112889_j27324581937373_2_alg».proof.Proof.Softmax
import Idealize.ShloMosaic.Lib.Pipeline.Value
import Idealize.ShloMosaic.Lib.ValueIdx

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.GatedSoftmax Cert.KernelIdeal.Block

variable (m : (ℓ : Loc nD τ sig) → Buf (Elt Ideal) ℓ) (ρ : Dev nD → PrngReg)

/-! ## The four staged arrays, as the region finds them -/

/-- The query projection: the column array [64, 1024, 1] read at its one last coordinate. -/
def QP (c : Dev nD) : (⟨2, ![64, 1024]⟩ : Shape).Idx → EReal :=
  fun i => (V m c main_v19 : S64x1024x1.Idx → EReal) (ix3 (i 0) (i 1) (0 : Fin 1))

/-- The key projection. -/
def KP (c : Dev nD) : (⟨2, ![64, 1024]⟩ : Shape).Idx → EReal := (V m c main_v9 : S64x1024.Idx → EReal)

/-- The gate weight's row sums: the row array [1, 1024] read at its one first coordinate. -/
def W1 (c : Dev nD) : (⟨1, ![1024]⟩ : Shape).Idx → EReal :=
  fun i => (V m c main_v13 : S1x1024.Idx → EReal) (ix2 (0 : Fin 1) (i 0))

/-- The key half of the gate. -/
def KG (c : Dev nD) : (⟨2, ![64, 1024]⟩ : Shape).Idx → EReal := (V m c main_v18 : S64x1024.Idx → EReal)

/-! ## The index maps over the grid -/

theorem hz3 : (![0, 0, 0] : Fin 3 → Nat) = fun _ => 0 := funext fun a => by fin_cases a <;> rfl
theorem hz2 : (![0, 0] : Fin 2 → Nat) = fun _ => 0 := funext fun a => by fin_cases a <;> rfl

/-- Each input window's block index in terms of the output's, and the output's ranges: decided over the 64 points. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 2) = win0_4.index t (0 : Fin 3) ∧ win0_1.index t (1 : Fin 2) = 0
    ∧ win0_2.index t (0 : Fin 2) = 0 ∧ win0_2.index t (1 : Fin 2) = 0
    ∧ win0_3.index t (0 : Fin 2) = win0_4.index t (0 : Fin 3) ∧ win0_3.index t (1 : Fin 2) = 0
    ∧ win0_4.index t (0 : Fin 3) ≤ 7 ∧ win0_4.index t (1 : Fin 3) ≤ 7 ∧ win0_4.index t (2 : Fin 3) = 0 :=
  (by decide +kernel : ∀ t : Fin grid0.N, _)

/-- Every block of the result is some point's. -/
theorem idx_onto : ∀ (p q : Fin 8), ∃ t : Fin cfg0.N, win0_4.index t = ![p.val, q.val, 0] :=
  (by decide +kernel : ∀ (p q : Fin 8), ∃ t : Fin grid0.N, win0_4.index t = ![p.val, q.val, 0])

/-! ## The input blocks at a point, as elements of the staged arrays -/

theorem iblk0_apply (c : Dev nD) (t : Fin cfg0.N) (b : Fin 8) (r : Fin 128) (b' : Fin 64) (r' : Fin 1024)
    (hb : b'.val = win0_4.index t (0 : Fin 3) * 8 + b.val) (hr : r'.val = win0_4.index t (1 : Fin 3) * 128 + r.val) :
    (iblk m c 0 t : FVec Ideal S8x128x1 .f32) (ix3 b r (0 : Fin 1)) = QP m c (ix2 b' r') := by
  obtain ⟨e00, e01, e02, -⟩ := idx_facts t
  unfold iblk QP
  rw [View.read_apply]
  show (V m c main_v19 : S64x1024x1.Idx → EReal) _ = (V m c main_v19 : S64x1024x1.Idx → EReal) _
  congr 1
  funext a
  apply Fin.ext
  match a with
  | ⟨0, _⟩ => show win0_0.index t (0 : Fin 3) * 8 + 1 * b.val = b'.val; omega
  | ⟨1, _⟩ => show win0_0.index t (1 : Fin 3) * 128 + 1 * r.val = r'.val; omega
  | ⟨2, _⟩ => show win0_0.index t (2 : Fin 3) * 1 + 1 * 0 = 0; omega

theorem iblk1_apply (c : Dev nD) (t : Fin cfg0.N) (b : Fin 8) (k : Fin 1024) (b' : Fin 64)
    (hb : b'.val = win0_4.index t (0 : Fin 3) * 8 + b.val) :
    (iblk m c 1 t : FVec Ideal S8x1024 .f32) (ix2 b k) = KP m c (ix2 b' k) := by
  obtain ⟨-, -, -, e10, e11, -⟩ := idx_facts t
  unfold iblk KP
  rw [View.read_apply]
  show (V m c main_v9 : S64x1024.Idx → EReal) _ = (V m c main_v9 : S64x1024.Idx → EReal) _
  congr 1
  funext a
  apply Fin.ext
  match a with
  | ⟨0, _⟩ => show win0_1.index t (0 : Fin 2) * 8 + 1 * b.val = b'.val; omega
  | ⟨1, _⟩ => show win0_1.index t (1 : Fin 2) * 1024 + 1 * k.val = k.val; omega

theorem iblk2_apply (c : Dev nD) (t : Fin cfg0.N) (k : Fin 1024) :
    (iblk m c 2 t : FVec Ideal S1x1024 .f32) (ix2 (0 : Fin 1) k) = W1 m c (ix1 k) := by
  obtain ⟨-, -, -, -, -, e20, e21, -⟩ := idx_facts t
  unfold iblk W1
  rw [View.read_apply]
  show (V m c main_v13 : S1x1024.Idx → EReal) _ = (V m c main_v13 : S1x1024.Idx → EReal) _
  congr 1
  funext a
  apply Fin.ext
  match a with
  | ⟨0, _⟩ => show win0_2.index t (0 : Fin 2) * 1 + 1 * 0 = 0; omega
  | ⟨1, _⟩ => show win0_2.index t (1 : Fin 2) * 1024 + 1 * k.val = k.val; omega

theorem iblk3_apply (c : Dev nD) (t : Fin cfg0.N) (b : Fin 8) (k : Fin 1024) (b' : Fin 64)
    (hb : b'.val = win0_4.index t (0 : Fin 3) * 8 + b.val) :
    (iblk m c 3 t : FVec Ideal S8x1024 .f32) (ix2 b k) = KG m c (ix2 b' k) := by
  obtain ⟨-, -, -, -, -, -, -, e30, e31, -⟩ := idx_facts t
  unfold iblk KG
  rw [View.read_apply]
  show (V m c main_v18 : S64x1024.Idx → EReal) _ = (V m c main_v18 : S64x1024.Idx → EReal) _
  congr 1
  funext a
  apply Fin.ext
  match a with
  | ⟨0, _⟩ => show win0_3.index t (0 : Fin 2) * 8 + 1 * b.val = b'.val; omega
  | ⟨1, _⟩ => show win0_3.index t (1 : Fin 2) * 1024 + 1 * k.val = k.val; omega

/-! ## One element of one block -/

/-- If the four loaded blocks are the staged arrays' elements of batch `b'` and query row `r'`, the block at
    `(b, r, j)` is the whole-array function at `(b', r', j)`. -/
theorem point_eq (QPa KPa : (⟨2, ![64, 1024]⟩ : Shape).Idx → EReal) (W1a : (⟨1, ![1024]⟩ : Shape).Idx → EReal)
    (KGa : (⟨2, ![64, 1024]⟩ : Shape).Idx → EReal)
    (P0 : FVec Ideal S8x128x1 .f32) (P1 : FVec Ideal S8x1024 .f32) (P2 : FVec Ideal S1x1024 .f32) (P3 : FVec Ideal S8x1024 .f32)
    (b : Fin 8) (r : Fin 128) (j : Fin 1024) (b' : Fin 64) (r' : Fin 1024)
    (h0 : P0 (ix3 b r (0 : Fin 1)) = QPa (ix2 b' r')) (h1 : ∀ k : Fin 1024, P1 (ix2 b k) = KPa (ix2 b' k))
    (h2 : ∀ k : Fin 1024, P2 (ix2 (0 : Fin 1) k) = W1a (ix1 k)) (h3 : ∀ k : Fin 1024, P3 (ix2 b k) = KGa (ix2 b' k)) :
    E4 (F := Ideal) P0 P1 P2 P3 (ix3 b r j) = result QPa KPa W1a KGa (ix3 b' r' j) := by
  rw [block_apply]
  show softRow _ j = softRow _ j
  refine congrArg (fun v => softRow v j) (funext fun k => ?_)
  rw [h0, h1 k, h2 k, h3 k]

/-! ## From the blocks to the array -/

/-- WHAT POINT `t` WRITES BACK is block `t` of the whole-array function of the staged arrays. -/
theorem flushed_eq (c : Dev nD) (t : Fin cfg0.N) :
    (dats m 0 c).flushed 4 t
      = ((cfg0.win 4).blk t).view.read (Elt Ideal) (result (QP m c) (KP m c) (W1 m c) (KG m c)) := by
  rw [Value.flushed4]
  unfold out0_4
  simp only [View.ld_unit_zero (S := S8x128x1) hz3, View.ld_unit_zero (S := S8x1024) hz2, View.ld_unit_zero (S := S1x1024) hz2]
  obtain ⟨-, -, -, -, -, -, -, -, -, l0, l1, e42⟩ := idx_facts t
  funext y
  have hy0 : (y 0).val < 8 := (y 0).isLt
  have hy1 : (y 1).val < 128 := (y 1).isLt
  have hy2 : (y 2).val < 1024 := (y 2).isLt
  refine (canon4_eq (F := Ideal) (iblk m c 0 t) (iblk m c 1 t) (iblk m c 2 t) (iblk m c 3 t) y).trans ?_
  show E4 (F := Ideal) (iblk m c 0 t) (iblk m c 1 t) (iblk m c 2 t) (iblk m c 3 t) y
    = result (QP m c) (KP m c) (W1 m c) (KG m c) (((cfg0.win 4).blk t).view.emb y)
  have ey : (y : S8x128x1024.Idx) = ix3 (⟨(y 0).val, hy0⟩ : Fin 8) (⟨(y 1).val, hy1⟩ : Fin 128) (⟨(y 2).val, hy2⟩ : Fin 1024) :=
    funext fun a => Fin.ext (by match a with | ⟨0, _⟩ => rfl | ⟨1, _⟩ => rfl | ⟨2, _⟩ => rfl)
  have ei : (((cfg0.win 4).blk t).view.emb y : S64x1024x1024.Idx)
      = ix3 (⟨win0_4.index t (0 : Fin 3) * 8 + (y 0).val, by omega⟩ : Fin 64)
          (⟨win0_4.index t (1 : Fin 3) * 128 + (y 1).val, by omega⟩ : Fin 1024) (⟨(y 2).val, hy2⟩ : Fin 1024) :=
    funext fun a => Fin.ext (by
      match a with
      | ⟨0, _⟩ => show win0_4.index t (0 : Fin 3) * 8 + 1 * (y 0).val = win0_4.index t (0 : Fin 3) * 8 + (y 0).val; omega
      | ⟨1, _⟩ => show win0_4.index t (1 : Fin 3) * 128 + 1 * (y 1).val = win0_4.index t (1 : Fin 3) * 128 + (y 1).val; omega
      | ⟨2, _⟩ => show win0_4.index t (2 : Fin 3) * 1024 + 1 * (y 2).val = (y 2).val; omega)
  refine (congrArg (E4 (F := Ideal) (iblk m c 0 t) (iblk m c 1 t) (iblk m c 2 t) (iblk m c 3 t)) ey).trans ?_
  refine Eq.trans ?_ (congrArg (result (QP m c) (KP m c) (W1 m c) (KG m c)) ei).symm
  exact point_eq (QP m c) (KP m c) (W1 m c) (KG m c) (iblk m c 0 t) (iblk m c 1 t) (iblk m c 2 t) (iblk m c 3 t)
    ⟨(y 0).val, hy0⟩ ⟨(y 1).val, hy1⟩ ⟨(y 2).val, hy2⟩ ⟨win0_4.index t (0 : Fin 3) * 8 + (y 0).val, by omega⟩
    ⟨win0_4.index t (1 : Fin 3) * 128 + (y 1).val, by omega⟩
    (iblk0_apply m c t _ _ _ _ rfl rfl) (fun k => iblk1_apply m c t _ k _ rfl) (fun k => iblk2_apply m c t k)
    (fun k => iblk3_apply m c t _ k _ rfl)

/-- An index of the result is in point `t`'s block iff each coordinate is in the block's range on its axis. -/
theorem mem_blk (t : Fin cfg0.N) (i : S64x1024x1024.Idx) :
    i ∈ ((cfg0.win 4).blk t).view.set
      ↔ ∀ a : Fin 3, win0_4.index t a * S8x128x1024.size a ≤ (i a).val
          ∧ (i a).val < win0_4.index t a * S8x128x1024.size a + S8x128x1024.size a := by
  show i ∈ ((View.whole main_v20).slice (win0_4.rect t)).set ↔ _
  rw [View.set_slice_whole, Rect.mem_set_unit]
  exact Iff.rfl

/-- The 64 blocks tile the result: element `(b, r, j)` is in the block of point `(b / 8, r / 128)`. -/
theorem cover (i : S64x1024x1024.Idx) : ∃ t : Fin cfg0.N, (cfg0.win 4).flush t = true ∧ i ∈ ((cfg0.win 4).blk t).view.set := by
  have hi0 : (i 0).val < 64 := (i 0).isLt
  have hi1 : (i 1).val < 1024 := (i 1).isLt
  have hi2 : (i 2).val < 1024 := (i 2).isLt
  obtain ⟨t, ht⟩ := idx_onto ⟨(i 0).val / 8, by omega⟩ ⟨(i 1).val / 128, by omega⟩
  have q0 : win0_4.index t (0 : Fin 3) = (i 0).val / 8 := congrFun ht 0
  have q1 : win0_4.index t (1 : Fin 3) = (i 1).val / 128 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 8 ≤ (i 0).val ∧ (i 0).val < win0_4.index t (0 : Fin 3) * 8 + 8; omega
  | ⟨1, _⟩ => show win0_4.index t (1 : Fin 3) * 128 ≤ (i 1).val ∧ (i 1).val < win0_4.index t (1 : Fin 3) * 128 + 128; omega
  | ⟨2, _⟩ => show win0_4.index t (2 : Fin 3) * 1024 ≤ (i 2).val ∧ (i 2).val < win0_4.index t (2 : Fin 3) * 1024 + 1024; omega

/-- THE RESULT ARRAY after the run is the whole-array function of the staged arrays. -/
theorem final (c : Dev nD) : (dats m 0 c).arrAt 4 cfg0.N = result (QP m c) (KP m c) (W1 m c) (KG m c) :=
  (dats m 0 c).arrAt_eq_of_cover 4 (result (QP m c) (KP m c) (W1 m c) (KG m c)) (fun t _ => flushed_eq m c t) cover

/-- The kernel's run, read: the result array at the whole-array function, the arguments unchanged. -/
theorem run : θ_run defs (onTc (τ := τ) (main (F := Ideal))) ⟨m, fun _ => 0, ρ⟩ fun r => ∀ c : Dev nD,
      r.2.mem ((c : Thread nD τ).loc main_v20) = result (QP m c) (KP m c) (W1 m c) (KG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Whole

end
-- ==== Proof.HostArrays.lean ====
/-
  The four arrays the kernel's windows stage are host-computed from the arguments by the same operations, in the
  same order, as the reference's stages 4, 9, 17 and 27: the two projections `x · Wᵀ + bias`, the row sums of the
  left half of the gate weight, and the key half of the gate `(key projection) · W2ᵀ + bias`. Two of them are then
  reshaped, [64, 1024] to [64, 1024, 1] and [1024] to [1, 1024]; a reshape keeps the row-major order. None of these
  operations is opened: the two programs' terms are one term.
-/
import proofs.«112889_j27324581937373_2_alg».proof.Proof.Gen.KernelIdeal.Frame
import proofs.«112889_j27324581937373_2_alg».proof.Proof.Gen.ReferenceIdeal.Read
import Idealize.ShloMosaic.Lib.StableHlo.Run
import Idealize.ShloMosaic.Lib.Pipeline.Value

noncomputable section

namespace Cert.KernelIdeal.HostArrays

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (c : Dev nD)

/-- The query projection, reshaped to a column array. -/
theorem V19_eq : (V m c main_v19 : S64x1024x1.Idx → EReal)
    = shapeCast S64x1024x1 (Cert.ReferenceIdeal.Read.val_main_v4 (F := Ideal) (m ((c : Thread nD τ).loc main_arg0)) (m ((c : Thread nD τ).loc main_arg3)) (m ((c : Thread nD τ).loc main_arg4)))
        shapeCasts_S64x1024_S64x1024x1 := by
  dsimp only [Gen.V, Gen.hostOps0]
  after_results
  rfl

/-- The key projection. -/
theorem V9_eq : (V m c main_v9 : S64x1024.Idx → EReal)
    = Cert.ReferenceIdeal.Read.val_main_v9 (F := Ideal) (m ((c : Thread nD τ).loc main_arg1)) (m ((c : Thread nD τ).loc main_arg5)) (m ((c : Thread nD τ).loc main_arg6)) := by
  dsimp only [Gen.V, Gen.hostOps0]
  after_results
  rfl

/-- The gate weight's row sums, reshaped to a row array. -/
theorem V13_eq : (V m c main_v13 : S1x1024.Idx → EReal)
    = shapeCast S1x1024 (Cert.ReferenceIdeal.Read.val_main_v17 (F := Ideal) (m ((c : Thread nD τ).loc main_arg7))) shapeCasts_S1024_S1x1024 := by
  dsimp only [Gen.V, Gen.hostOps0]
  after_results
  rfl

set_option maxHeartbeats 4000000 in
/-- The key half of the gate. -/
theorem V18_eq : (V m c main_v18 : S64x1024.Idx → EReal)
    = Cert.ReferenceIdeal.Read.val_main_v27 (F := Ideal) (m ((c : Thread nD τ).loc main_arg1)) (m ((c : Thread nD τ).loc main_arg5)) (m ((c : Thread nD τ).loc main_arg6)) (m ((c : Thread nD τ).loc main_arg7)) (m ((c : Thread nD τ).loc main_arg8)) := by
  dsimp only [Gen.V, Gen.hostOps0]
  after_results
  rfl

end Cert.KernelIdeal.HostArrays

end
-- ==== Proof.Claims.lean ====
/-
  The five claims.

  Both idealized programs end with the result array at one whole-array function of the four projected arrays: the
  softmax over the key positions of the gated score rows (Proof/Softmax.lean). The kernel's run leaves it by blocks
  (Proof/KernelBlock.lean, Proof/KernelArray.lean) of the arrays its windows stage; the reference's run leaves it as
  its last stage (Proof/RefSide.lean) of its stages 4, 9, 17 and 27; and the staged arrays ARE those stages of the
  same arguments (Proof/HostArrays.lean), a reshape to a column or to a row keeping each element at its row-major
  place. The two spellings of the gate's logistic are one function on every extended real, so the precondition is
  not opened. The three frames are the generated runs; the idealization rewrote nothing.
-/
import proofs.«112889_j27324581937373_2_alg».proof.Defs
import proofs.«112889_j27324581937373_2_alg».proof.Proof.Gen.Kernel
import proofs.«112889_j27324581937373_2_alg».proof.Proof.Gen.Kernel.Frame
import proofs.«112889_j27324581937373_2_alg».proof.Proof.Gen.KernelIdeal
import proofs.«112889_j27324581937373_2_alg».proof.Proof.Gen.KernelIdeal.Frame
import proofs.«112889_j27324581937373_2_alg».proof.Proof.Gen.KernelIdeal.Value
import proofs.«112889_j27324581937373_2_alg».proof.Proof.Gen.ReferenceIdeal
import proofs.«112889_j27324581937373_2_alg».proof.Proof.Gen.ReferenceIdeal.Run
import proofs.«112889_j27324581937373_2_alg».proof.Proof.Gen.ReferenceIdeal.Read
import proofs.«112889_j27324581937373_2_alg».proof.Proof.Gen.Pre_finite_inputs
import proofs.«112889_j27324581937373_2_alg».proof.Proof.Softmax
import proofs.«112889_j27324581937373_2_alg».proof.Proof.RefSide
import proofs.«112889_j27324581937373_2_alg».proof.Proof.KernelArray
import proofs.«112889_j27324581937373_2_alg».proof.Proof.HostArrays
import Idealize.ShloMosaic.Lib.Pipeline.Value

noncomputable section

open Idealize.ShloMosaic Idealize.ShloMosaic.TcCoe Idealize.SL.Sem Idealize.ShloMosaic.ValueIdx
open Cert.GatedSoftmax

/-! ## The staged arrays are the reference's stages of the same arguments -/

namespace Cert.KernelIdeal.Whole

open Cert.KernelIdeal Cert.KernelIdeal.Gen Cert.KernelIdeal.HostArrays

variable (m : (ℓ : Loc nD τ sig) → Buf (Elt Ideal) ℓ) (c : Dev nD)

/-- The column array at `(b, r, 0)` is the query projection at `(b, r)`: the same row-major place. -/
theorem QP_eq : QP m c = Cert.ReferenceIdeal.Read.val_main_v4 (F := Ideal) (m ((c : Thread nD τ).loc main_arg0)) (m ((c : Thread nD τ).loc main_arg3)) (m ((c : Thread nD τ).loc main_arg4)) := by
  funext i
  unfold QP
  rw [V19_eq]
  exact shapeCast_apply _ _ _ i (by
    rw [Shape.rowMajor_val_two, Shape.rowMajor_val_three]
    show (i 0).val * 1024 + (i 1).val = ((i 0).val * 1024 + (i 1).val) * 1 + 0
    omega)

theorem KP_eq : KP m c = Cert.ReferenceIdeal.Read.val_main_v9 (F := Ideal) (m ((c : Thread nD τ).loc main_arg1)) (m ((c : Thread nD τ).loc main_arg5)) (m ((c : Thread nD τ).loc main_arg6)) := by
  unfold KP
  exact V9_eq m c

/-- The row array at `(0, k)` is the row sum at `k`: the same row-major place. -/
theorem W1_eq : W1 m c = Cert.ReferenceIdeal.Read.val_main_v17 (F := Ideal) (m ((c : Thread nD τ).loc main_arg7)) := by
  funext i
  unfold W1
  rw [V13_eq]
  exact shapeCast_apply _ _ _ i (by
    rw [Shape.rowMajor_val_one, Shape.rowMajor_val_two]
    show (i 0).val = 0 * 1024 + (i 0).val
    omega)

theorem KG_eq : KG m c
    = Cert.ReferenceIdeal.Read.val_main_v27 (F := Ideal) (m ((c : Thread nD τ).loc main_arg1)) (m ((c : Thread nD τ).loc main_arg5)) (m ((c : Thread nD τ).loc main_arg6)) (m ((c : Thread nD τ).loc main_arg7)) (m ((c : Thread nD τ).loc main_arg8)) := by
  unfold KG
  exact V18_eq m c

end Cert.KernelIdeal.Whole

/-! ## The claims -/

namespace Cert.Proof.Claims

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result at the softmax of the gated score rows of the projected arrays, which both
    compute from the arguments by the same host operations. -/
theorem algebraic : Cert.algebraic_KernelIdeal_ReferenceIdeal := by
  intro m ρ m' ρ' _ hagree
  refine ⟨fun c => result (Cert.KernelIdeal.Whole.QP m c) (Cert.KernelIdeal.Whole.KP m c) (Cert.KernelIdeal.Whole.W1 m c)
    (Cert.KernelIdeal.Whole.KG m c), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v54_eq, Cert.ReferenceIdeal.RefValue.ref_eq, h0, h1, h3, h4, h5, h6, h7, h8]
  show _ = result (Cert.KernelIdeal.Whole.QP m c) (Cert.KernelIdeal.Whole.KP m c) (Cert.KernelIdeal.Whole.W1 m c)
    (Cert.KernelIdeal.Whole.KG m c)
  rw [Cert.KernelIdeal.Whole.QP_eq, Cert.KernelIdeal.Whole.KP_eq, Cert.KernelIdeal.Whole.W1_eq, Cert.KernelIdeal.Whole.KG_eq]

end Cert.Proof.Claims

end
-- ==== Proof.lean ====
/-
  The certificate of the gated-softmax attention kernel against its reference, at the extended reals.

  Both programs project the queries and the keys (`x · Wᵀ + bias`), form for every batch `b`, query row `r` and key
  position `k` the score `qp[b,r] · kp[b,k]` gated by the twice-applied logistic of `qp[b,r] · w1[k] + kg[b,k]`, and
  return the softmax of each score row over the key positions. The kernel does the last step block by block on an
  8 × 8 grid and spells the logistic `½ · tanh (½ x) + ½`; the reference does it on whole arrays and spells it
  `1 / (1 + exp (-x))`. The modules under Proof/ state the common whole-array function and read both programs'
  results as it; this file assembles the five claims behind the programs' stated facts.
-/
import proofs.«112889_j27324581937373_2_alg».proof.Defs
import proofs.«112889_j27324581937373_2_alg».proof.Proof.Gen.Kernel
import proofs.«112889_j27324581937373_2_alg».proof.Proof.Gen.Kernel.Skeleton
import proofs.«112889_j27324581937373_2_alg».proof.Proof.Gen.Kernel.Launch
import proofs.«112889_j27324581937373_2_alg».proof.Proof.Gen.Kernel.Points
import proofs.«112889_j27324581937373_2_alg».proof.Proof.Gen.Kernel.Frame
import proofs.«112889_j27324581937373_2_alg».proof.Proof.Gen.KernelIdeal
import proofs.«112889_j27324581937373_2_alg».proof.Proof.Gen.KernelIdeal.Skeleton
import proofs.«112889_j27324581937373_2_alg».proof.Proof.Gen.KernelIdeal.Launch
import proofs.«112889_j27324581937373_2_alg».proof.Proof.Gen.KernelIdeal.Points
import proofs.«112889_j27324581937373_2_alg».proof.Proof.Gen.KernelIdeal.Frame
import proofs.«112889_j27324581937373_2_alg».proof.Proof.Gen.ReferenceIdeal
import proofs.«112889_j27324581937373_2_alg».proof.Proof.Gen.Pre_finite_inputs
import proofs.«112889_j27324581937373_2_alg».proof.Proof.Gen.KernelIdeal.Value
import proofs.«112889_j27324581937373_2_alg».proof.Proof.Gen.ReferenceIdeal.Run
import proofs.«112889_j27324581937373_2_alg».proof.Proof.Gen.ReferenceIdeal.Read
import proofs.«112889_j27324581937373_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
